-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096 .f32) (main_v48 : IVec S_ 1) (main_v49 : FVec F S4096x32 .f32) (main_v50 : FVec F S4096x32 .f32) : IVec S_ 1 :=
  let main_v51 : IVec S4096x32 1 := cmpf .olt main_v49 main_v50
  let main_c_19 : IVec S_ 1 := constantI S_ 1 1#1
  let main_v52 : IVec S_ 1 := (fun x v => Host.reduce IntOp.andi x v reducesTo_S4096x32_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S32 .f32) (main_arg8 : FVec F S32x32 .f32) (main_arg9 : FVec F S32 .f32) (main_arg10 : FVec F S4096x32 .f32) (main_arg11 : FVec F S4096 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S4096x32 .f32 := Host.absf main_arg10
  let main_cst_18 : FVec F S_ .f32 := constant S_ .f32 0x7F800000#32
  let main_v50 : FVec F S4096x32 .f32 := broadcastInDim S4096x32 ![] bcast_S_S4096x32 main_cst_18
  fn_part3 (F := F) main_arg11 main_v48 main_v49 main_v50

def fn_part1 {F : FTy → Type} [FloatOps F] (main_arg4 : FVec F S4x4096 .f32) (main_arg5 : FVec F S4096x4096 .f32) (main_arg6 : FVec F S32x4096 .f32) (main_arg7 : FVec F S32 .f32) (main_arg8 : FVec F S32x32 .f32) (main_arg9 : FVec F S32 .f32) (main_arg10 : FVec F S4096x32 .f32) (main_arg11 : FVec F S4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x4096 .f32) (main_arg1 : FVec F S4x32 .f32) (main_arg2 : FVec F S4x4096 .f32) (main_arg3 : FVec F S4x4096 .f32) (main_arg4 : FVec F S4x4096 .f32) (main_arg5 : FVec F S4096x4096 .f32) (main_arg6 : FVec F S32x4096 .f32) (main_arg7 : FVec F S32 .f32) (main_arg8 : FVec F S32x32 .f32) (main_arg9 : FVec F S32 .f32) (main_arg10 : FVec F S4096x32 .f32) (main_arg11 : FVec F S4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_arg10 main_arg11 main_v13 main_v16
-- ==== Kernel.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S1x32 : Shape := ⟨2, ![1, 32]⟩
abbrev S_ : Shape := ⟨0, ![]⟩
abbrev S1x4096 : Shape := ⟨2, ![1, 4096]⟩
abbrev S1x512x4096 : Shape := ⟨3, ![1, 512, 4096]⟩
abbrev S4x1x4096 : Shape := ⟨3, ![4, 1, 4096]⟩
abbrev S4x512x4096 : Shape := ⟨3, ![4, 512, 4096]⟩
abbrev S2048x4096 : Shape := ⟨2, ![2048, 4096]⟩
abbrev S8x4096 : Shape := ⟨2, ![8, 4096]⟩
abbrev S512x512 : Shape := ⟨2, ![512, 512]⟩
abbrev S8x512 : Shape := ⟨2, ![8, 512]⟩
abbrev S2048x512 : Shape := ⟨2, ![2048, 512]⟩
abbrev S1x512 : Shape := ⟨2, ![1, 512]⟩
abbrev S512 : Shape := ⟨1, ![512]⟩

abbrev nBuf : Space → Nat
  | .hbm => 50
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S4x32, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4096x4096, .f32⟩
  | .hbm, ⟨6, _⟩ => ⟨S32x4096, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S4096x32, .f32⟩
  | .hbm, ⟨11, _⟩ => ⟨S4096, .f32⟩
  | .hbm, ⟨12, _⟩ => ⟨S4096x32, .f32⟩
  | .hbm, ⟨13, _⟩ => ⟨S4x32, .f32⟩
  | .hbm, ⟨14, _⟩ => ⟨S1x32, .f32⟩
  | .hbm, ⟨15, _⟩ => ⟨S4x32, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S32x32, .f32⟩
  | .hbm, ⟨21, _⟩ => ⟨S4x32, .f32⟩
  | .hbm, ⟨22, _⟩ => ⟨S1x32, .f32⟩
  | .hbm, ⟨23, _⟩ => ⟨S4x32, .f32⟩
  | .hbm, ⟨24, _⟩ => ⟨S4x32, .f32⟩
  | .hbm, ⟨25, _⟩ => ⟨S_, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S32x4096, .f32⟩
  | .hbm, ⟨32, _⟩ => ⟨S4x4096, .f32⟩
  | .hbm, ⟨33, _⟩ => ⟨S1x4096, .f32⟩
  | .hbm, ⟨34, _⟩ => ⟨S4x4096, .f32⟩
  | .hbm, ⟨35, _⟩ => ⟨S4x4096, .f32⟩
  | .hbm, ⟨36, _⟩ => ⟨S1x512x4096, .f32⟩
  | .hbm, ⟨37, _⟩ => ⟨S4x1x4096, .f32⟩
  | .hbm, ⟨38, _⟩ => ⟨S4x512x4096, .f32⟩
  | .hbm, ⟨39, _⟩ => ⟨S4x512x4096, .f32⟩
  | .hbm, ⟨40, _⟩ => ⟨S4x512x4096, .f32⟩
  | .hbm, ⟨41, _⟩ => ⟨S2048x4096, .f32⟩
  | .hbm, ⟨42, _⟩ => ⟨S2048x4096, .bf16⟩
  | .hbm, ⟨43, _⟩ => ⟨S_, .i32⟩
  | .hbm, ⟨44, _⟩ => ⟨S_, .f32⟩
  | .hbm, ⟨45, _⟩ => ⟨S8x4096, .f32⟩
  | .hbm, ⟨46, _⟩ => ⟨S_, .i32⟩
  | .hbm, ⟨47, _⟩ => ⟨S_, .f32⟩
  | .hbm, ⟨48, _⟩ => ⟨S8x4096, .f32⟩
  | .hbm, ⟨49, _⟩ => ⟨S2048x4096, .f32⟩
  | .local _ .vmem, ⟨0, _⟩ => ⟨S2048x4096, .bf16⟩
  | .local _ .vmem, ⟨1, _⟩ => ⟨S512x512, .f32⟩
  | .local _ .vmem, ⟨2, _⟩ => ⟨S512x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_cst : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_c : Ref sig .tc := ⟨.hbm, 43, rfl⟩
abbrev main_call0_call1_v0 : Ref sig .tc := ⟨.hbm, 44, rfl⟩
abbrev main_call0_v28 : Ref sig .tc := ⟨.hbm, 45, rfl⟩
abbrev main_call0_c_0 : Ref sig .tc := ⟨.hbm, 46, rfl⟩
abbrev main_call0_call2_v0 : Ref sig .tc := ⟨.hbm, 47, rfl⟩
abbrev main_call0_v29 : Ref sig .tc := ⟨.hbm, 48, rfl⟩
abbrev main_v0 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S32x4096_S4096x32_1_0 : S32x4096.Transposes [1, 0] S4096x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  transposes_S32x32_S32x32_1_0 : S32x32.Transposes [1, 0] S32x32
  transposes_S4096x32_S32x4096_1_0 : S4096x32.Transposes [1, 0] S32x4096
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S512x4096_S1x512x4096_1_2 : S512x4096.BroadcastsInDim S1x512x4096 (![1, 2] : Fin 2 → Fin S1x512x4096.rank)
  bcast_S4x4096_S4x1x4096_0_2 : S4x4096.BroadcastsInDim S4x1x4096 (![0, 2] : Fin 2 → Fin S4x1x4096.rank)
  bcast_S1x512x4096_S4x512x4096_0_1_2 : S1x512x4096.BroadcastsInDim S4x512x4096 (![0, 1, 2] : Fin 3 → Fin S4x512x4096.rank)
  bcast_S4x1x4096_S4x512x4096_0_1_2 : S4x1x4096.BroadcastsInDim S4x512x4096 (![0, 1, 2] : Fin 3 → Fin S4x512x4096.rank)
  shapeCasts_S4x512x4096_S2048x4096 : S4x512x4096.ShapeCasts S2048x4096
  bitsLt_bf16_f32 : FTy.bits .bf16 < FTy.bits .f32
  pads_S4x4096_S8x4096_040_000 : S4x4096.Pads (![0, 0] : Fin 2 → Nat) ![4, 0] ![0, 0] S8x4096
  h_S_ : 0 < S_.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  inb_S8x512_S1x512_0_0 : ∀ a, (![0, 0] : Fin 2 → Nat) a + S1x512.size a ≤ S8x512.size a
  h_S1x512 : 0 < S1x512.numel
  shapeCasts_S1x512_S512 : S1x512.ShapeCasts S512
  inb_S2048x512_S512x512_0_0 : ∀ a, (![0, 0] : Fin 2 → Nat) a + S512x512.size a ≤ S2048x512.size a
  shapeCasts_S512_S1x512 : S512.ShapeCasts S1x512
  broadcasts_S1x512_S512x512 : S1x512.Broadcasts S512x512
  inb_S8x512_S1x512_1_0 : ∀ a, (![1, 0] : Fin 2 → Nat) a + S1x512.size a ≤ S8x512.size a
  inb_S2048x512_S512x512_512_0 : ∀ a, (![512, 0] : Fin 2 → Nat) a + S512x512.size a ≤ S2048x512.size a
  inb_S8x512_S1x512_2_0 : ∀ a, (![2, 0] : Fin 2 → Nat) a + S1x512.size a ≤ S8x512.size a
  inb_S2048x512_S512x512_1024_0 : ∀ a, (![1024, 0] : Fin 2 → Nat) a + S512x512.size a ≤ S2048x512.size a
  inb_S8x512_S1x512_3_0 : ∀ a, (![3, 0] : Fin 2 → Nat) a + S1x512.size a ≤ S8x512.size a
  inb_S2048x512_S512x512_1536_0 : ∀ a, (![1536, 0] : Fin 2 → Nat) a + S512x512.size a ≤ S2048x512.size a
  dot_S4x4096_S4096x32_S4x32_1_0_0_1_n_n_wf : DotDims.WF S4x4096 S4096x32 S4x32 [1] [0] [0] [1] [] []
  dot_S4x32_S32x32_S4x32_1_0_0_1_n_n_wf : DotDims.WF S4x32 S32x32 S4x32 [1] [0] [0] [1] [] []
  dot_S4x32_S32x4096_S4x4096_1_0_0_1_n_n_wf : DotDims.WF S4x32 S32x4096 S4x4096 [1] [0] [0] [1] [] []
  dot_S2048x512_S512x512_S2048x512_1_1_0_0_n_n_wf : DotDims.WF S2048x512 S512x512 S2048x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S2048x512.size a ≤ S2048x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x4096.size a
  hwx0_3 : ∀ i : grid0.Coords, EltTy.bits .f32 = 32 ∨ (Rect.block (s := S8x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x4096.size a
  hwx0_4 : ∀ i : grid0.Coords, EltTy.bits .f32 = 32 ∨ (Rect.block (s := S2048x4096) S2048x512.size (cc0_transform_4 i) (hinb0_4 i)).WholeWords (EltTy.packing .f32)

variable [Facts₀]

def dot_S4x4096_S4096x32_S4x32_1_0_0_1_n_n : DotDims S4x4096 S4096x32 S4x32 where
  lhsContracting := [1]
  rhsContracting := [0]
  lhsNonContracting := [0]
  rhsNonContracting := [1]
  lhsBatch := []
  rhsBatch := []
  wf := dot_S4x4096_S4096x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf
def dot_S4x32_S32x4096_S4x4096_1_0_0_1_n_n : DotDims S4x32 S32x4096 S4x4096 where
  lhsContracting := [1]
  rhsContracting := [0]
  lhsNonContracting := [0]
  rhsNonContracting := [1]
  lhsBatch := []
  rhsBatch := []
  wf := dot_S4x32_S32x4096_S4x4096_1_0_0_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_call0_v27) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v28) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v29) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x4096 : Shape := ⟨2, ![512, 4096]⟩
abbrev S4x32 : Shape := ⟨2, ![4, 32]⟩
abbrev S4x4096 : Shape := ⟨2, ![4, 4096]⟩
abbrev S4096x4096 : Shape := ⟨2, ![4096, 4096]⟩
abbrev S32x4096 : Shape := ⟨2, ![32, 4096]⟩
abbrev S32 : Shape := ⟨1, ![32]⟩
abbrev S32x32 : Shape := ⟨2, ![32, 32]⟩
abbrev S4096x32 : Shape := ⟨2, ![4096, 32]⟩
abbrev S4096 : Shape := ⟨1, ![4096]⟩
abbrev S1x32 : Shape := ⟨2, ![1, 32]⟩
abbrev S_ : Shape := ⟨0, ![]⟩
abbrev S1x4096 : Shape := ⟨2, ![1, 4096]⟩
abbrev S1x512x1x4096 : Shape := ⟨4, ![1, 512, 1, 4096]⟩
abbrev S4x512x1x4096 : Shape := ⟨4, ![4, 512, 1, 4096]⟩
abbrev S2048x4096 : Shape := ⟨2, ![2048, 4096]⟩
abbrev S4x512x4096 : Shape := ⟨3, ![4, 512, 4096]⟩

abbrev nBuf : Space → Nat
  | .hbm => 50
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4x32, .f32⟩
  | .hbm, ⟨2, _⟩ => ⟨S4x4096, .f32⟩
  | .hbm, ⟨3, _⟩ => ⟨S4x4096, .f32⟩
  | .hbm, ⟨4, _⟩ => ⟨S4x4096, .f32⟩
  | .hbm, ⟨5, _⟩ => ⟨S4096x4096, .f32⟩
  | .hbm, ⟨6, _⟩ => ⟨S32x4096, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S4096x32, .f32⟩
  | .hbm, ⟨11, _⟩ => ⟨S4096, .f32⟩
  | .hbm, ⟨12, _⟩ => ⟨S4096x32, .f32⟩
  | .hbm, ⟨13, _⟩ => ⟨S4x32, .f32⟩
  | .hbm, ⟨14, _⟩ => ⟨S1x32, .f32⟩
  | .hbm, ⟨15, _⟩ => ⟨S4x32, .f32⟩
  | .hbm, ⟨16, _⟩ => ⟨S4x32, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S32x32, .f32⟩
  | .hbm, ⟨21, _⟩ => ⟨S4x32, .f32⟩
  | .hbm, ⟨22, _⟩ => ⟨S1x32, .f32⟩
  | .hbm, ⟨23, _⟩ => ⟨S4x32, .f32⟩
  | .hbm, ⟨24, _⟩ => ⟨S4x32, .f32⟩
  | .hbm, ⟨25, _⟩ => ⟨S_, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S32x4096, .f32⟩
  | .hbm, ⟨32, _⟩ => ⟨S4x4096, .f32⟩
  | .hbm, ⟨33, _⟩ => ⟨S1x4096, .f32⟩
  | .hbm, ⟨34, _⟩ => ⟨S4x4096, .f32⟩
  | .hbm, ⟨35, _⟩ => ⟨S4x4096, .f32⟩
  | .hbm, ⟨36, _⟩ => ⟨S1x512x1x4096, .f32⟩
  | .hbm, ⟨37, _⟩ => ⟨S4x512x1x4096, .f32⟩
  | .hbm, ⟨38, _⟩ => ⟨S2048x4096, .f32⟩
  | .hbm, ⟨39, _⟩ => ⟨S4x512x4096, .f32⟩
  | .hbm, ⟨40, _⟩ => ⟨S2048x4096, .f32⟩
  | .hbm, ⟨41, _⟩ => ⟨S4x512x4096, .f32⟩
  | .hbm, ⟨42, _⟩ => ⟨S2048x4096, .f32⟩
  | .hbm, ⟨43, _⟩ => ⟨S4x512x4096, .f32⟩
  | .hbm, ⟨44, _⟩ => ⟨S2048x4096, .f32⟩
  | .hbm, ⟨45, _⟩ => ⟨S2048x4096, .f32⟩
  | .hbm, ⟨46, _⟩ => ⟨S4096x4096, .f32⟩
  | .hbm, ⟨47, _⟩ => ⟨S2048x4096, .f32⟩
  | .hbm, ⟨48, _⟩ => ⟨S2048x4096, .f32⟩
  | .hbm, ⟨49, _⟩ => ⟨S2048x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  transposes_S32x4096_S4096x32_1_0 : S32x4096.Transposes [1, 0] S4096x32
  bcast_S32_S1x32_1 : S32.BroadcastsInDim S1x32 (![1] : Fin 1 → Fin S1x32.rank)
  bcast_S1x32_S4x32_0_1 : S1x32.BroadcastsInDim S4x32 (![0, 1] : Fin 2 → Fin S4x32.rank)
  bcast_S_S4x32 : S_.BroadcastsInDim S4x32 (![] : Fin 0 → Fin S4x32.rank)
  transposes_S32x32_S32x32_1_0 : S32x32.Transposes [1, 0] S32x32
  transposes_S4096x32_S32x4096_1_0 : S4096x32.Transposes [1, 0] S32x4096
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  shapeCasts_S512x4096_S1x512x1x4096 : S512x4096.ShapeCasts S1x512x1x4096
  bcast_S1x512x1x4096_S4x512x1x4096_0_1_2_3 : S1x512x1x4096.BroadcastsInDim S4x512x1x4096 (![0, 1, 2, 3] : Fin 4 → Fin S4x512x1x4096.rank)
  shapeCasts_S4x512x1x4096_S2048x4096 : S4x512x1x4096.ShapeCasts S2048x4096
  bcast_S4x4096_S4x512x4096_0_2 : S4x4096.BroadcastsInDim S4x512x4096 (![0, 2] : Fin 2 → Fin S4x512x4096.rank)
  shapeCasts_S4x512x4096_S2048x4096 : S4x512x4096.ShapeCasts S2048x4096
  transposes_S4096x4096_S4096x4096_1_0 : S4096x4096.Transposes [1, 0] S4096x4096
  dot_S4x4096_S4096x32_S4x32_1_0_0_1_n_n_wf : DotDims.WF S4x4096 S4096x32 S4x32 [1] [0] [0] [1] [] []
  dot_S4x32_S32x32_S4x32_1_0_0_1_n_n_wf : DotDims.WF S4x32 S32x32 S4x32 [1] [0] [0] [1] [] []
  dot_S4x32_S32x4096_S4x4096_1_0_0_1_n_n_wf : DotDims.WF S4x32 S32x4096 S4x4096 [1] [0] [0] [1] [] []
  dot_S2048x4096_S4096x4096_S2048x4096_1_0_0_1_n_n_wf : DotDims.WF S2048x4096 S4096x4096 S2048x4096 [1] [0] [0] [1] [] []

variable [Facts₀]

def dot_S4x4096_S4096x32_S4x32_1_0_0_1_n_n : DotDims S4x4096 S4096x32 S4x32 where
  lhsContracting := [1]
  rhsContracting := [0]
  lhsNonContracting := [0]
  rhsNonContracting := [1]
  lhsBatch := []
  rhsBatch := []
  wf := dot_S4x4096_S4096x32_S4x32_1_0_0_1_n_n_wf
def dot_S4x32_S32x32_S4x32_1_0_0_1_n_n : DotDims S4x32 S32x32 S4x32 where
  lhsContracting := [1]
  rhsContracting := [0]
  lhsNonContracting := [0]
  rhsNonContracting := [1]
  lhsBatch := []
  rhsBatch := []
  wf := dot_S4x32_S32x32_S4x32_1_0_0_1_n_n_wf
def dot_S4x32_S32x4096_S4x4096_1_0_0_1_n_n : DotDims S4x32 S32x4096 S4x4096 where
  lhsContracting := [1]
  rhsContracting := [0]
  lhsNonContracting := [0]
  rhsNonContracting := [1]
  lhsBatch := []
  rhsBatch := []
  wf := dot_S4x32_S32x4096_S4x4096_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Pieces.lean ====
/-
  What the body leaves, case by case, as values of its input blocks (any float values).

  The body reads, of the staged scaled input, the slab of 512 columns that starts at the point's offset (`slab`), and
  the whole weight block. In every case it ends by storing into the accumulator the accumulate step of the slab, the
  weight block and what the accumulator held: the fill at a point with `k = 0` (the fill is stored first and read
  back), what the point before left otherwise. At a point with `k = 7` it then stores the output block in four
  pieces of 512 rows, piece `m` the epilogue of row `m` of the gain block, row `m` of the bias block and rows
  `512·m …` of the accumulator just stored.
-/
import proofs.«164941_j34514357190659_2_alg».proof.Proof.Gen.KernelIdeal.Frame
import Idealize.ShloMosaic.Lib.Pipeline.Value
import Idealize.ShloMosaic.Lib.Tactic

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The slab of 512 columns of the staged input that the point reads: all 2048 rows, columns from the point's offset. -/
def slab (i : grid0.Coords) (x0 : Vec F S2048x4096 .bf16) : Vec F S2048x512 .bf16 :=
  View.ld x0 (Rect.unit (s := S2048x4096) (k0_off1 i) S2048x512.size (Facts₀.k0_off1_inb i))

/-- The accumulator after a point: the accumulate step over what it held. -/
abbrev stepOf (i : grid0.Coords) (x0 : Vec F S2048x4096 .bf16) (x1 : Vec F S512x512 .f32) (acc : Vec F S2048x512 .f32) :
    Vec F S2048x512 .f32 := k0_pay2 (slab i x0) x1 acc

/-- A point with `0 < k < 7` leaves the step over what the point before left. -/
theorem scratch_B (c : Dev nD) (i : grid0.Coords) (arg2 : Memref sig .tc .vmem S2048x4096 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : ¬cond0_1 i) (x0 : Vec F S2048x4096 .bf16) (x1 : Vec F S512x512 .f32) (x2 : Vec F S8x512 .f32) (x3 : Vec F S8x512 .f32) (xs0 : Vec F S2048x512 .f32) :
    sout0_B_0 c i arg2 harg2 arg3 harg3 arg4 harg4 arg5 harg5 arg6 harg6 arg7 harg7 hc0 hc1 x0 x1 x2 x3 xs0 = stepOf i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread,
    View.ld_unit_zero (S := S2048x512) hz, View.ld_unit_zero (S := S512x512) hz]
  rfl

/-- A point with `k = 7` leaves the same in the accumulator. -/
theorem scratch_C (c : Dev nD) (i : grid0.Coords) (arg2 : Memref sig .tc .vmem S2048x4096 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i) (x0 : Vec F S2048x4096 .bf16) (x1 : Vec F S512x512 .f32) (x2 : Vec F S8x512 .f32) (x3 : Vec F S8x512 .f32) (xs0 : Vec F S2048x512 .f32) :
    sout0_C_0 c i arg2 harg2 arg3 harg3 arg4 harg4 arg5 harg5 arg6 harg6 arg7 harg7 hc0 hc1 x0 x1 x2 x3 xs0 = stepOf i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S2048x512) hz, View.ld_unit_zero (S := S512x512) hz]
  rfl

/-- A point with `k = 0` leaves the step over the fill. -/
theorem scratch_A (c : Dev nD) (i : grid0.Coords) (arg2 : Memref sig .tc .vmem S2048x4096 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : ¬cond0_1 i) (x0 : Vec F S2048x4096 .bf16) (x1 : Vec F S512x512 .f32) (x2 : Vec F S8x512 .f32) (x3 : Vec F S8x512 .f32) :
    sout0_A_0 c i arg2 harg2 arg3 harg3 arg4 harg4 arg5 harg5 arg6 harg6 arg7 harg7 hc0 hc1 x0 x1 x2 x3 = stepOf i x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, harg2.read_unread, harg3.read_unread,
    View.ld_unit_zero (S := S512x512) hz]
  rfl

/-- A point with `k = 7` leaves in the output block four pieces of 512 rows, last stored first: piece `m` is the
    epilogue of rows `m` of the gain and bias blocks and rows `512·m …` of the accumulator the point has just stored. -/
theorem out_C (c : Dev nD) (i : grid0.Coords) (arg2 : Memref sig .tc .vmem S2048x4096 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i) (x0 : Vec F S2048x4096 .bf16) (x1 : Vec F S512x512 .f32) (x2 : Vec F S8x512 .f32) (x3 : Vec F S8x512 .f32) (xs0 : Vec F S2048x512 .f32) :
    out0_C_4 c i arg2 harg2 arg3 harg3 arg4 harg4 arg5 harg5 arg6 harg6 arg7 harg7 hc0 hc1 x0 x1 x2 x3 xs0
      = View.canon
        [⟨Rect.unit (s := S2048x512) ![1536, 0] S512x512.size Facts₀.inb_S2048x512_S512x512_1536_0,
            k0_pay3 (View.ld x2 (Rect.unit (s := S8x512) ![3, 0] S1x512.size Facts₀.inb_S8x512_S1x512_3_0))
              (View.ld x3 (Rect.unit (s := S8x512) ![3, 0] S1x512.size Facts₀.inb_S8x512_S1x512_3_0))
              (View.ld (stepOf i x0 x1 xs0) (Rect.unit (s := S2048x512) ![1536, 0] S512x512.size Facts₀.inb_S2048x512_S512x512_1536_0))⟩,
          ⟨Rect.unit (s := S2048x512) ![1024, 0] S512x512.size Facts₀.inb_S2048x512_S512x512_1024_0,
            k0_pay6 (View.ld x2 (Rect.unit (s := S8x512) ![2, 0] S1x512.size Facts₀.inb_S8x512_S1x512_2_0))
              (View.ld x3 (Rect.unit (s := S8x512) ![2, 0] S1x512.size Facts₀.inb_S8x512_S1x512_2_0))
              (View.ld (stepOf i x0 x1 xs0) (Rect.unit (s := S2048x512) ![1024, 0] S512x512.size Facts₀.inb_S2048x512_S512x512_1024_0))⟩,
          ⟨Rect.unit (s := S2048x512) ![512, 0] S512x512.size Facts₀.inb_S2048x512_S512x512_512_0,
            k0_pay5 (View.ld x2 (Rect.unit (s := S8x512) ![1, 0] S1x512.size Facts₀.inb_S8x512_S1x512_1_0))
              (View.ld x3 (Rect.unit (s := S8x512) ![1, 0] S1x512.size Facts₀.inb_S8x512_S1x512_1_0))
              (View.ld (stepOf i x0 x1 xs0) (Rect.unit (s := S2048x512) ![512, 0] S512x512.size Facts₀.inb_S2048x512_S512x512_512_0))⟩,
          ⟨Rect.unit (s := S2048x512) ![0, 0] S512x512.size Facts₀.inb_S2048x512_S512x512_0_0,
            k0_pay4 (View.ld x2 (Rect.unit (s := S8x512) ![0, 0] S1x512.size Facts₀.inb_S8x512_S1x512_0_0))
              (View.ld x3 (Rect.unit (s := S8x512) ![0, 0] S1x512.size Facts₀.inb_S8x512_S1x512_0_0))
              (View.ld (stepOf i x0 x1 xs0) (Rect.unit (s := S2048x512) ![0, 0] S512x512.size Facts₀.inb_S2048x512_S512x512_0_0))⟩] := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  simp only [View.readCov_eq_canon', View.canon_unit_zero (S := S2048x512) hz, View.readAt_eq_ld, harg2.read_unread, harg3.read_unread,
    harg4.read_unread, harg5.read_unread, harg7.read_unread,
    View.ld_unit_zero (S := S2048x512) hz, View.ld_unit_zero (S := S512x512) hz]
  rfl

end Cert.KernelIdeal.Bridge

end
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.Payloads.lean ====
/-
  The body's arithmetic at an index, at the ideal values.

  * the accumulate step (`k0_pay2`): entry `(r, j)` of the accumulator grows by the contraction of row `r` of the input
    slab with row `j` of the weight block, `acc[r, j] + ∑_q a[r, q] · b[j, q]` (a change of float format is the identity
    and the product goes into a zero accumulator);
  * the fill (`k0_pay1`) is the zero word everywhere;
  * the epilogue (`k0_pay3` … `k0_pay6`, one text): entry `(p, q)` of a slice of 512 accumulator rows times the gain
    row plus the bias row, `a[p, q] · g[0, q] + b[0, q]`.
-/
import proofs.«164941_j34514357190659_2_alg».proof.Proof.Gen.KernelIdeal.Skeleton
import proofs.«164941_j34514357190659_2_alg».proof.Proof.LibBlockOps
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.ValueIdx
open scoped BigOperators

local notation "D512" => dot_S2048x512_S512x512_S2048x512_1_1_0_0_n_n

theorem dot_l0 (i : S2048x512.Idx) (q : (dot_S2048x512_S512x512_S2048x512_1_1_0_0_n_n).contr.Idx) :
    ((dot_S2048x512_S512x512_S2048x512_1_1_0_0_n_n).lhsIdx i q 0).val = (i 0).val := by
  unfold DotDims.lhsIdx
  rw [dif_neg (show ¬(0 : Fin S2048x512.rank) ∈ (dot_S2048x512_S512x512_S2048x512_1_1_0_0_n_n).lhsBatch by decide),
    dif_pos (show (0 : Fin S2048x512.rank) ∈ (dot_S2048x512_S512x512_S2048x512_1_1_0_0_n_n).lhsNonContracting by decide)]
  rfl

theorem dot_l1 (i : S2048x512.Idx) (q : (dot_S2048x512_S512x512_S2048x512_1_1_0_0_n_n).contr.Idx) :
    ((dot_S2048x512_S512x512_S2048x512_1_1_0_0_n_n).lhsIdx i q 1).val = (q ⟨0, by decide⟩).val :=
  (dot_S2048x512_S512x512_S2048x512_1_1_0_0_n_n).lhsIdx_val_of_single rfl i q

theorem dot_r0 (i : S2048x512.Idx) (q : (dot_S2048x512_S512x512_S2048x512_1_1_0_0_n_n).contr.Idx) :
    ((dot_S2048x512_S512x512_S2048x512_1_1_0_0_n_n).rhsIdx i q 0).val = (i 1).val := by
  unfold DotDims.rhsIdx
  rw [dif_neg (show ¬(0 : Fin S512x512.rank) ∈ (dot_S2048x512_S512x512_S2048x512_1_1_0_0_n_n).rhsBatch by decide),
    dif_pos (show (0 : Fin S512x512.rank) ∈ (dot_S2048x512_S512x512_S2048x512_1_1_0_0_n_n).rhsNonContracting by decide)]
  rfl

theorem dot_r1 (i : S2048x512.Idx) (q : (dot_S2048x512_S512x512_S2048x512_1_1_0_0_n_n).contr.Idx) :
    ((dot_S2048x512_S512x512_S2048x512_1_1_0_0_n_n).rhsIdx i q 1).val = (q ⟨0, by decide⟩).val :=
  (dot_S2048x512_S512x512_S2048x512_1_1_0_0_n_n).rhsIdx_val_of_single rfl i q

/-- THE ACCUMULATE STEP at `(r, j)`: the old entry plus the contraction of row `r` of the slab with row `j` of the
    weight block over their 512 shared positions. -/
theorem step_apply (a : Vec Ideal S2048x512 .bf16) (b : Vec Ideal S512x512 .f32) (acc : Vec Ideal S2048x512 .f32)
    (r : Fin 2048) (j : Fin 512) :
    k0_pay2 (F := Ideal) a b acc (ix2 r j) = acc (ix2 r j) + ∑ q : Fin 512, a (ix2 r q) * b (ix2 j q) := by
  unfold k0_pay2
  simp only [shapeCast_self]
  refine (addf_apply _ _ _).trans (congrArg (acc (ix2 r j) + ·) ?_)
  exact Cert.LibBlockOps.matmul_zero_nt_ix2 (a := 2048) (k := 512) (b := 512)
    dot_S2048x512_S512x512_S2048x512_1_1_0_0_n_n rfl rfl dot_l0 dot_l1 dot_r0 dot_r1 none a
    (truncf .bf16 b bitsLt_bf16_f32) r j

/-- THE FILL is the zero word at every entry. -/
theorem fill_apply (y : S2048x512.Idx) : k0_pay1 (F := Ideal) y = 0 := by
  unfold k0_pay1
  simp only [shapeCast_self]
  show Ideal.ofBits .f32 0x00000000#32 = 0
  exact Ideal.ofBits_zero_f32

/-- A `[1, 512]` row spread over 512 rows reads, at `(p, q)`, the row's entry `q`. -/
theorem rowSpread_apply (v : Vec Ideal S1x512 .f32) (p q : Fin 512) :
    broadcastTo S512x512 v broadcasts_S1x512_S512x512 (ix2 p q) = v (ix2 (0 : Fin 1) q) := by
  refine broadcastTo_apply v broadcasts_S1x512_S512x512 (ix2 p q) (ix2 (0 : Fin 1) q) fun ax => ?_
  match ax with
  | ⟨0, _⟩ => rfl
  | ⟨1, _⟩ => rfl

/-- THE EPILOGUE at `(p, q)`: the accumulator slice's entry times the gain row's entry `q` plus the bias row's. -/
theorem epilogue_apply (g b : Vec Ideal S1x512 .f32) (a : Vec Ideal S512x512 .f32) (p q : Fin 512) :
    k0_pay3 (F := Ideal) g b a (ix2 p q) = a (ix2 p q) * g (ix2 (0 : Fin 1) q) + b (ix2 (0 : Fin 1) q) := by
  unfold k0_pay3
  simp only [shapeCast_shapeCast]
  refine (addf_apply _ _ _).trans ?_
  rw [rowSpread_apply b p q]
  refine congrArg (· + b (ix2 (0 : Fin 1) q)) ?_
  refine (mulf_apply _ _ _).trans ?_
  rw [rowSpread_apply g p q]

/-- The four epilogue payloads are one text. -/
theorem pay4_eq : @k0_pay4 = @k0_pay3 := rfl
theorem pay5_eq : @k0_pay5 = @k0_pay3 := rfl
theorem pay6_eq : @k0_pay6 = @k0_pay3 := rfl

end Cert.KernelIdeal.Bridge

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.Spec.lean ====
/-
  The ensemble layer as one function of its arrays, and the law that joins a contraction accumulated block by block
  with the whole contraction.

  For a batch of 512 rows `x`, four per-model scale rows `α`, a weight `w` of 4096 output by 4096 input features and
  per-model gain and bias rows `γ`, `β`, row `r = 512·m + b` of the result is model `m` applied to batch row `b`:

      out[r, c] = (∑ₖ (x[b, k] · α[m, k]) · w[c, k]) · γ[m, c] + β[m, c],     m = r / 512,  b = r % 512.

  Entries are addressed by natural numbers (`nat2`, zero outside the array), so that a block offset is a sum of naturals
  and no index carries a proof. The contraction over 4096 positions is cut into 8 consecutive blocks of 512: the running
  sum after block `s`, started from a value `z`, is `z` plus the sum over the blocks `0 … s` (`partialSum`), it grows by one
  block's sum per step (`partialSum_succ`), and after the last block it is `z` plus the whole contraction
  (`partialSum_last`). Only associativity and commutativity of the sum on the extended reals enter, so nothing here asks
  for finite entries.
-/
import Idealize.ShloMosaic.PureOps.Ideal
import Idealize.ShloMosaic.Lib.ValueIdx
import proofs.«164941_j34514357190659_2_alg».proof.Proof.LibBlockSum

noncomputable section

namespace Cert.Ensemble

open Idealize.ShloMosaic Idealize.ShloMosaic.ValueIdx
open scoped BigOperators

/-- An `[a, b]` array of extended reals. -/
abbrev Arr (a b : ℕ) : Type := (⟨2, ![a, b]⟩ : Shape).Idx → EReal

/-- Entry `(p, q)` of an `[a, b]` array, addressed by naturals: zero outside the array. -/
def nat2 {a b : ℕ} (A : Arr a b) (p q : ℕ) : EReal :=
  if h : p < a ∧ q < b then A (ix2 ⟨p, h.1⟩ ⟨q, h.2⟩) else 0

theorem nat2_of_lt {a b : ℕ} (A : Arr a b) {p q : ℕ} (hp : p < a) (hq : q < b) :
    nat2 A p q = A (ix2 ⟨p, hp⟩ ⟨q, hq⟩) := dif_pos ⟨hp, hq⟩

theorem nat2_fin {a b : ℕ} (A : Arr a b) (p : Fin a) (q : Fin b) : nat2 A p.val q.val = A (ix2 p q) :=
  nat2_of_lt A p.isLt q.isLt

/-- One term of the contraction of row `r` of `xs` with row `c` of `w`, at position `k`. -/
def term (xs : Arr 2048 4096) (w : Arr 4096 4096) (r c k : ℕ) : EReal := nat2 xs r k * nat2 w c k

/-- The running sum after the blocks `0 … s` of 512 positions, started from `z`. -/
def partialSum (z : EReal) (xs : Arr 2048 4096) (w : Arr 4096 4096) (r c s : ℕ) : EReal :=
  z + ∑ u ∈ Finset.range (s + 1), ∑ q : Fin 512, term xs w r c (u * 512 + q.val)

/-- After the first block: the start value plus that block's sum. -/
theorem partialSum_zero (z : EReal) (xs : Arr 2048 4096) (w : Arr 4096 4096) (r c : ℕ) :
    partialSum z xs w r c 0 = z + ∑ q : Fin 512, term xs w r c (0 * 512 + q.val) := by
  unfold partialSum
  rw [Finset.sum_range_one]

/-- One more block adds its sum. -/
theorem partialSum_succ (z : EReal) (xs : Arr 2048 4096) (w : Arr 4096 4096) (r c s : ℕ) :
    partialSum z xs w r c (s + 1)
      = partialSum z xs w r c s + ∑ q : Fin 512, term xs w r c ((s + 1) * 512 + q.val) := by
  unfold partialSum
  rw [Finset.sum_range_succ, add_assoc]

/-- After the eighth block the running sum is the start value plus the whole contraction. -/
theorem partialSum_last (z : EReal) (xs : Arr 2048 4096) (w : Arr 4096 4096) (r c : ℕ) :
    partialSum z xs w r c 7 = z + ∑ k : Fin 4096, term xs w r c k.val := by
  unfold partialSum
  exact congrArg (z + ·) (Cert.LibBlockSum.sum_fin_blocks (fun n => term xs w r c n) 8 512)

/-- The layer over a scaled input `xs` already laid out in 2048 rows, with gain and bias rows addressed by model. -/
def layerOf {g : ℕ} (z : EReal) (xs : Arr 2048 4096) (w : Arr 4096 4096) (γ β : Arr g 4096) : Arr 2048 4096 := fun i =>
  (z + ∑ k : Fin 4096, term xs w (i 0).val (i 1).val k.val) * nat2 γ ((i 0).val / 512) (i 1).val
    + nat2 β ((i 0).val / 512) (i 1).val

/-- The layer's entry at an index whose coordinates are `a` and `b`. -/
theorem layerOf_at {g : ℕ} (z : EReal) (xs : Arr 2048 4096) (w : Arr 4096 4096) (γ β : Arr g 4096)
    (i : (⟨2, ![2048, 4096]⟩ : Shape).Idx) (a b : ℕ) (h0 : (i 0).val = a) (h1 : (i 1).val = b) :
    layerOf z xs w γ β i
      = (z + ∑ k : Fin 4096, term xs w a b k.val) * nat2 γ (a / 512) b + nat2 β (a / 512) b := by
  subst h0 h1
  rfl

/-- THE SPECIFICATION: the ensemble layer of the argument arrays. -/
def layer (x : Arr 512 4096) (α : Arr 4 4096) (w : Arr 4096 4096) (γ β : Arr 4 4096) : Arr 2048 4096 := fun i =>
  (∑ k : Fin 4096, (nat2 x ((i 0).val % 512) k.val * nat2 α ((i 0).val / 512) k.val) * nat2 w (i 1).val k.val)
      * nat2 γ ((i 0).val / 512) (i 1).val
    + nat2 β ((i 0).val / 512) (i 1).val

/-- A layer over a scaled input whose rows are the batch rows times the model rows, started from zero, with gain and
    bias rows that agree with `γ`, `β` on the four models, is the specification. -/
theorem layerOf_eq_layer {g : ℕ} (xs : Arr 2048 4096) (w : Arr 4096 4096) (γ' β' : Arr g 4096)
    (x : Arr 512 4096) (α : Arr 4 4096) (γ β : Arr 4 4096)
    (hxs : ∀ r k : ℕ, r < 2048 → k < 4096 → nat2 xs r k = nat2 x (r % 512) k * nat2 α (r / 512) k)
    (hγ : ∀ p c : ℕ, p < 4 → c < 4096 → nat2 γ' p c = nat2 γ p c)
    (hβ : ∀ p c : ℕ, p < 4 → c < 4096 → nat2 β' p c = nat2 β p c) :
    layerOf 0 xs w γ' β' = layer x α w γ β := by
  funext i
  have h0 : (i 0).val < 2048 := (i 0).isLt
  have h1 : (i 1).val < 4096 := (i 1).isLt
  unfold layerOf layer
  rw [zero_add, hγ _ _ (by omega) h1, hβ _ _ (by omega) h1]
  congr 2
  refine Finset.sum_congr rfl fun k _ => ?_
  unfold term
  rw [hxs _ _ h0 k.isLt]

end Cert.Ensemble

end
-- ==== Proof.Blocks.lean ====
/-
  The windows' blocks read at an index.

  Point `t` of the 8 × 8 grid is output tile `n = t / 8`, contraction block `k = t % 8`. There the scaled input's
  window holds the whole `[2048, 4096]` array, the weight's window rows `512·n …` and columns `512·k …` of the weight,
  and the gain's and the bias's windows all 8 rows and columns `512·n …` of their padded arrays; the slab the body reads
  of the scaled input is columns `512·k …`. Each block entry is stated as the array's entry addressed by naturals.
-/
import proofs.«164941_j34514357190659_2_alg».proof.Proof.Gen.KernelIdeal.Frame
import proofs.«164941_j34514357190659_2_alg».proof.Proof.Pieces
import proofs.«164941_j34514357190659_2_alg».proof.Proof.Spec
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.Ensemble

variable (m : (ℓ : Loc nD τ sig) → Buf (Elt Ideal) ℓ)

/-- The arrays the region finds: the scaled input, the weight, the padded gain and the padded bias. -/
abbrev XS (c : Dev nD) : Arr 2048 4096 := (V m c main_call0_v27 : S2048x4096.Idx → EReal)
abbrev WT (c : Dev nD) : Arr 4096 4096 := (V m c main_arg5 : S4096x4096.Idx → EReal)
abbrev G8 (c : Dev nD) : Arr 8 4096 := (V m c main_call0_v28 : S8x4096.Idx → EReal)
abbrev B8 (c : Dev nD) : Arr 8 4096 := (V m c main_call0_v29 : S8x4096.Idx → EReal)

/-- The printed index maps, decided once over the grid, and the point's contraction coordinate. -/
theorem idx_facts : ∀ t : Fin cfg0.N, win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val / 8
    ∧ win0_4.index t (0 : Fin 2) = 0 ∧ win0_4.index t (1 : Fin 2) = t.val / 8
    ∧ ((grid0.coords t) 1).val = t.val % 8 :=
  (by decide +kernel : ∀ t : Fin grid0.N, _)

/-- The scaled input's block is the whole array. -/
theorem blk0_apply (c : Dev nD) (t : Fin cfg0.N) (r : Fin 2048) (k : Fin 4096) :
    (iblk m c 0 t : S2048x4096.Idx → EReal) (ix2 r k) = nat2 (XS m c) r.val k.val := by
  obtain ⟨e0, e1, -⟩ := idx_facts t
  rw [nat2_fin]
  show V m c main_call0_v27 (((cfg0.win 0).blk t).view.emb (ix2 r k)) = V m c main_call0_v27 (ix2 r k)
  refine congrArg (V m c main_call0_v27) (funext fun a => Fin.ext ?_)
  match a with
  | ⟨0, _⟩ => show win0_0.index t (0 : Fin 2) * 2048 + 1 * r.val = r.val; rw [e0]; omega
  | ⟨1, _⟩ => show win0_0.index t (1 : Fin 2) * 4096 + 1 * k.val = k.val; rw [e1]; omega

/-- The weight's block: rows `512·n …`, columns `512·k …`. -/
theorem blk1_apply (c : Dev nD) (t : Fin cfg0.N) (j q : Fin 512) :
    (iblk m c 1 t : S512x512.Idx → EReal) (ix2 j q)
      = nat2 (WT m c) (t.val / 8 * 512 + j.val) (t.val % 8 * 512 + q.val) := by
  obtain ⟨-, -, e0, e1, -⟩ := idx_facts t
  have hN : t.val < 64 := lt_of_lt_of_eq t.isLt (show cfg0.N = 64 from N_0)
  rw [nat2_of_lt (WT m c) (show t.val / 8 * 512 + j.val < 4096 by have := j.isLt; omega)
    (show t.val % 8 * 512 + q.val < 4096 by have := q.isLt; omega)]
  show V m c main_arg5 (((cfg0.win 1).blk t).view.emb (ix2 j q)) = V m c main_arg5 _
  refine congrArg (V m c main_arg5) (funext fun a => Fin.ext ?_)
  match a with
  | ⟨0, _⟩ => show win0_1.index t (0 : Fin 2) * 512 + 1 * j.val = t.val / 8 * 512 + j.val; rw [e0]; omega
  | ⟨1, _⟩ => show win0_1.index t (1 : Fin 2) * 512 + 1 * q.val = t.val % 8 * 512 + q.val; rw [e1]; omega

/-- The padded gain's block: all 8 rows, columns `512·n …`. -/
theorem blk2_apply (c : Dev nD) (t : Fin cfg0.N) (g : Fin 8) (j : Fin 512) :
    (iblk m c 2 t : S8x512.Idx → EReal) (ix2 g j) = nat2 (G8 m c) g.val (t.val / 8 * 512 + j.val) := by
  obtain ⟨-, -, -, -, e0, e1, -⟩ := idx_facts t
  have hN : t.val < 64 := lt_of_lt_of_eq t.isLt (show cfg0.N = 64 from N_0)
  rw [nat2_of_lt (G8 m c) g.isLt (show t.val / 8 * 512 + j.val < 4096 by have := j.isLt; omega)]
  show V m c main_call0_v28 (((cfg0.win 2).blk t).view.emb (ix2 g j)) = V m c main_call0_v28 _
  refine congrArg (V m c main_call0_v28) (funext fun a => Fin.ext ?_)
  match a with
  | ⟨0, _⟩ => show win0_2.index t (0 : Fin 2) * 8 + 1 * g.val = g.val; rw [e0]; omega
  | ⟨1, _⟩ => show win0_2.index t (1 : Fin 2) * 512 + 1 * j.val = t.val / 8 * 512 + j.val; rw [e1]; omega

/-- The padded bias's block likewise. -/
theorem blk3_apply (c : Dev nD) (t : Fin cfg0.N) (g : Fin 8) (j : Fin 512) :
    (iblk m c 3 t : S8x512.Idx → EReal) (ix2 g j) = nat2 (B8 m c) g.val (t.val / 8 * 512 + j.val) := by
  obtain ⟨-, -, -, -, -, -, e0, e1, -⟩ := idx_facts t
  have hN : t.val < 64 := lt_of_lt_of_eq t.isLt (show cfg0.N = 64 from N_0)
  rw [nat2_of_lt (B8 m c) g.isLt (show t.val / 8 * 512 + j.val < 4096 by have := j.isLt; omega)]
  show V m c main_call0_v29 (((cfg0.win 3).blk t).view.emb (ix2 g j)) = V m c main_call0_v29 _
  refine congrArg (V m c main_call0_v29) (funext fun a => Fin.ext ?_)
  match a with
  | ⟨0, _⟩ => show win0_3.index t (0 : Fin 2) * 8 + 1 * g.val = g.val; rw [e0]; omega
  | ⟨1, _⟩ => show win0_3.index t (1 : Fin 2) * 512 + 1 * j.val = t.val / 8 * 512 + j.val; rw [e1]; omega

/-- The slab's entry `(r, q)` is the staged input's entry `(r, 512·k + q)`, `k` the point's contraction coordinate. -/
theorem slab_apply (i : grid0.Coords) (x0 : Vec Ideal S2048x4096 .bf16) (r : Fin 2048) (q : Fin 512) (k : Fin 4096)
    (hk : k.val = (i 1).val * 512 + q.val) : slab i x0 (ix2 r q) = x0 (ix2 r k) := by
  unfold slab
  show x0 _ = x0 _
  refine congrArg x0 (funext fun a => Fin.ext ?_)
  match a with
  | ⟨0, _⟩ => show (k0_off1 i) 0 + 1 * r.val = r.val; rw [k0_off1_eq]; show 0 + 1 * r.val = r.val; omega
  | ⟨1, _⟩ => show (k0_off1 i) 1 + 1 * q.val = k.val; rw [k0_off1_eq, hk]; show 512 * (i 1).val + 1 * q.val = _; omega

end Cert.KernelIdeal.Bridge

end
-- ==== Proof.Epilogue.lean ====
/-
  The output block a point with `k = 7` leaves, at an index, at the ideal values.

  The four stored pieces are restrictions of ONE function of the block index: entry `(r, j)` is the accumulator's
  entry `(r, j)` times the gain block's entry `(r / 512, j)` plus the bias block's entry `(r / 512, j)` — row
  `r` belongs to model `r / 512`, whose gain and bias rows the piece over rows `512·(r / 512) …` loads.
-/
import proofs.«164941_j34514357190659_2_alg».proof.Proof.Pieces
import proofs.«164941_j34514357190659_2_alg».proof.Proof.Payloads
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx

/-- Row `r / 512` of an 8-row block, at the column of `y`. -/
def modelRow (y : S2048x512.Idx) : S8x512.Idx :=
  ix2 (⟨(y 0).val / 512, by have h : (y 0).val < 2048 := (y 0).isLt; omega⟩ : Fin 8) (⟨(y 1).val, (y 1).isLt⟩ : Fin 512)

/-- The output block as one function of the block index. -/
def outFn (g b : Vec Ideal S8x512 .f32) (P : Vec Ideal S2048x512 .f32) : S2048x512.Idx → EReal :=
  fun y => P y * g (modelRow y) + b (modelRow y)

/-- Piece `N` (rows `512·N …`, gain and bias row `N`) is the restriction of that function to its rows. -/
theorem piece_eq (o N : ℕ) (ho : o = N * 512)
    (inb : ∀ a, (![o, 0] : Fin 2 → ℕ) a + S512x512.size a ≤ S2048x512.size a)
    (inbg : ∀ a, (![N, 0] : Fin 2 → ℕ) a + S1x512.size a ≤ S8x512.size a)
    (g b : Vec Ideal S8x512 .f32) (P : Vec Ideal S2048x512 .f32) (x : S512x512.Idx) :
    k0_pay3 (F := Ideal) (View.ld g (Rect.unit (s := S8x512) ![N, 0] S1x512.size inbg))
        (View.ld b (Rect.unit (s := S8x512) ![N, 0] S1x512.size inbg))
        (View.ld P (Rect.unit (s := S2048x512) ![o, 0] S512x512.size inb)) x
      = outFn g b P ((Rect.unit (s := S2048x512) ![o, 0] S512x512.size inb).emb x) := by
  obtain ⟨p, q, rfl⟩ : ∃ (p q : Fin 512), x = ix2 p q := ⟨x 0, x 1, eq_ix2 x⟩
  rw [epilogue_apply]
  unfold outFn
  have e : (Rect.unit (s := S8x512) ![N, 0] S1x512.size inbg).idx (ix2 (0 : Fin 1) q)
      = modelRow ((Rect.unit (s := S2048x512) ![o, 0] S512x512.size inb).emb (ix2 p q)) := by
    funext a
    apply Fin.ext
    match a with
    | ⟨0, _⟩ => show N + 1 * 0 = (o + 1 * p.val) / 512; subst ho; have := p.isLt; omega
    | ⟨1, _⟩ => show 0 + 1 * q.val = 0 + 1 * q.val; rfl
  show P _ * g ((Rect.unit (s := S8x512) ![N, 0] S1x512.size inbg).idx (ix2 (0 : Fin 1) q))
      + b ((Rect.unit (s := S8x512) ![N, 0] S1x512.size inbg).idx (ix2 (0 : Fin 1) q)) = _
  rw [e]
  rfl

/-- THE OUTPUT BLOCK at `(r, j)`: the accumulator the point has just stored, times the gain, plus the bias, of
    model `r / 512`. -/
theorem out_apply (c : Dev nD) (i : grid0.Coords) (arg2 : Memref sig .tc .vmem S2048x4096 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i)
    (x0 : Vec Ideal S2048x4096 .bf16) (x1 : Vec Ideal S512x512 .f32) (x2 : Vec Ideal S8x512 .f32) (x3 : Vec Ideal S8x512 .f32)
    (xs0 : Vec Ideal S2048x512 .f32) (y : S2048x512.Idx) :
    out0_C_4 (F := Ideal) c i arg2 harg2 arg3 harg3 arg4 harg4 arg5 harg5 arg6 harg6 arg7 harg7 hc0 hc1 x0 x1 x2 x3 xs0 y = outFn x2 x3 (stepOf i x0 x1 xs0) y := by
  rw [out_C]
  refine View.canon_apply_of_pieces (Val := Elt Ideal) (S := S2048x512) (e := .f32) (outFn x2 x3 (stepOf i x0 x1 xs0)) _ ?_ y ?_
  · intro p hp x
    simp only [List.mem_cons, List.not_mem_nil, or_false] at hp
    rcases hp with rfl | rfl | rfl | rfl
    · exact piece_eq 1536 3 rfl _ _ x2 x3 _ x
    · exact piece_eq 1024 2 rfl _ _ x2 x3 _ x
    · exact piece_eq 512 1 rfl _ _ x2 x3 _ x
    · exact piece_eq 0 0 rfl _ _ x2 x3 _ x
  · have h0 : (y 0).val < 2048 := (y 0).isLt
    have h1 : (y 1).val < 512 := (y 1).isLt
    rcases (show (y 0).val < 512 ∨ (512 ≤ (y 0).val ∧ (y 0).val < 1024) ∨ (1024 ≤ (y 0).val ∧ (y 0).val < 1536)
        ∨ 1536 ≤ (y 0).val by omega) with h | h | h | h
    · refine ⟨_, List.mem_cons_of_mem _ (List.mem_cons_of_mem _ (List.mem_cons_of_mem _ List.mem_cons_self)), ?_⟩
      show y ∈ (Rect.unit (s := S2048x512) ![0, 0] S512x512.size Facts₀.inb_S2048x512_S512x512_0_0).set
      rw [Rect.mem_set_unit]
      intro a
      match a with
      | ⟨0, _⟩ => show 0 ≤ (y 0).val ∧ (y 0).val < 0 + 512; omega
      | ⟨1, _⟩ => show 0 ≤ (y 1).val ∧ (y 1).val < 0 + 512; omega
    · refine ⟨_, List.mem_cons_of_mem _ (List.mem_cons_of_mem _ List.mem_cons_self), ?_⟩
      show y ∈ (Rect.unit (s := S2048x512) ![512, 0] S512x512.size Facts₀.inb_S2048x512_S512x512_512_0).set
      rw [Rect.mem_set_unit]
      intro a
      match a with
      | ⟨0, _⟩ => show 512 ≤ (y 0).val ∧ (y 0).val < 512 + 512; omega
      | ⟨1, _⟩ => show 0 ≤ (y 1).val ∧ (y 1).val < 0 + 512; omega
    · refine ⟨_, List.mem_cons_of_mem _ List.mem_cons_self, ?_⟩
      show y ∈ (Rect.unit (s := S2048x512) ![1024, 0] S512x512.size Facts₀.inb_S2048x512_S512x512_1024_0).set
      rw [Rect.mem_set_unit]
      intro a
      match a with
      | ⟨0, _⟩ => show 1024 ≤ (y 0).val ∧ (y 0).val < 1024 + 512; omega
      | ⟨1, _⟩ => show 0 ≤ (y 1).val ∧ (y 1).val < 0 + 512; omega
    · refine ⟨_, List.mem_cons_self, ?_⟩
      show y ∈ (Rect.unit (s := S2048x512) ![1536, 0] S512x512.size Facts₀.inb_S2048x512_S512x512_1536_0).set
      rw [Rect.mem_set_unit]
      intro a
      match a with
      | ⟨0, _⟩ => show 1536 ≤ (y 0).val ∧ (y 0).val < 1536 + 512; omega
      | ⟨1, _⟩ => show 0 ≤ (y 1).val ∧ (y 1).val < 0 + 512; omega

end Cert.KernelIdeal.Bridge

end
-- ==== Proof.Accum.lean ====
/-
  The accumulator point by point, and the output block at a point that writes back.

  Within output tile `n`, the accumulator after contraction block `k` holds, at `(r, j)`, zero plus the sum over the
  blocks `0 … k` of the products of row `r` of the scaled input with row `512·n + j` of the weight — the running sum of
  the specification module. It is so after the first block (the fill, then one step), and each later point adds one
  block's sum to what the point before left: an induction on the point, never an enumeration of the grid. At a point
  with `k = 7` the output block is that accumulator times the gain plus the bias of each row's model.
-/
import proofs.«164941_j34514357190659_2_alg».proof.Proof.Pieces
import proofs.«164941_j34514357190659_2_alg».proof.Proof.Payloads
import proofs.«164941_j34514357190659_2_alg».proof.Proof.Blocks
import proofs.«164941_j34514357190659_2_alg».proof.Proof.Epilogue
import proofs.«164941_j34514357190659_2_alg».proof.Proof.Spec

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.Ensemble
open scoped BigOperators

variable (m : (ℓ : Loc nD τ sig) → Buf (Elt Ideal) ℓ)

/-- ONE STEP over blocks that are an array's entries addressed by naturals: the accumulator's entry grows by the sum
    of the products over contraction block `k`, against row `512·n + j` of the weight. -/
theorem step_term (i : grid0.Coords) (x0 : Vec Ideal S2048x4096 .bf16) (x1 : Vec Ideal S512x512 .f32)
    (acc : Vec Ideal S2048x512 .f32) (A : Arr 2048 4096) (B : Arr 4096 4096) (n k : ℕ)
    (hk : (i 1).val = k) (hk8 : k < 8)
    (h0 : ∀ (r : Fin 2048) (u : Fin 4096), x0 (ix2 r u) = nat2 A r.val u.val)
    (h1 : ∀ (j q : Fin 512), x1 (ix2 j q) = nat2 B (n * 512 + j.val) (k * 512 + q.val))
    (r : Fin 2048) (j : Fin 512) :
    stepOf i x0 x1 acc (ix2 r j)
      = acc (ix2 r j) + ∑ q : Fin 512, term A B r.val (n * 512 + j.val) (k * 512 + q.val) := by
  refine (step_apply (slab i x0) x1 acc r j).trans (congrArg (acc (ix2 r j) + ·) (Finset.sum_congr rfl fun q _ => ?_))
  unfold term
  rw [slab_apply i x0 r q ⟨k * 512 + q.val, by have := q.isLt; omega⟩ (by rw [hk]), h0, h1]

/-- What the accumulator holds after point `n`. -/
def accAfter (c : Dev nD) (n : ℕ) : S2048x512.Idx → EReal := fun y =>
  partialSum 0 (XS m c) (WT m c) (y 0).val (n / 8 * 512 + (y 1).val) (n % 8)

theorem accAfter_apply (c : Dev nD) (n : ℕ) (r : Fin 2048) (j : Fin 512) :
    accAfter m c n (ix2 r j) = partialSum 0 (XS m c) (WT m c) r.val (n / 8 * 512 + j.val) (n % 8) := rfl

/-- After a point with `k = 0`: the fill, then the first block's sum. -/
theorem acc_A (c : Dev nD) (t : Fin cfg0.N) (h0 : t.val % 8 = 0) (h1 : ¬t.val % 8 = 7) :
    (outsAt0 m c t.val t.isLt).2 = accAfter m c t.val := by
  rw [outsAt0_A m c t h0 h1]
  dsimp only
  rw [scratch_A]
  funext y
  obtain ⟨r, j, rfl⟩ : ∃ (r : Fin 2048) (j : Fin 512), y = ix2 r j := ⟨y 0, y 1, eq_ix2 y⟩
  have ek := (idx_facts t).2.2.2.2.2.2.2.2.2.2
  refine (step_term (grid0.coords t) (iblk m c 0 t) (iblk m c 1 t) (k0_pay1 (F := Ideal)) (XS m c) (WT m c) (t.val / 8) (t.val % 8) ek
    (Nat.mod_lt _ (by decide)) (blk0_apply m c t) (blk1_apply m c t) r j).trans ?_
  rw [fill_apply, accAfter_apply, h0, partialSum_zero]

/-- After a point with `0 < k < 7`: what the point before left, plus this block's sum. -/
theorem acc_B (c : Dev nD) (t : Fin cfg0.N) (h0 : ¬t.val % 8 = 0) (h1 : ¬t.val % 8 = 7) (hp : t.val - 1 < cfg0.N)
    (ih : (outsAt0 m c (t.val - 1) hp).2 = accAfter m c (t.val - 1)) :
    (outsAt0 m c t.val t.isLt).2 = accAfter m c t.val := by
  rw [outsAt0_B m c t h0 h1]
  dsimp only
  rw [scratch_B]
  funext y
  obtain ⟨r, j, rfl⟩ : ∃ (r : Fin 2048) (j : Fin 512), y = ix2 r j := ⟨y 0, y 1, eq_ix2 y⟩
  have ek := (idx_facts t).2.2.2.2.2.2.2.2.2.2
  refine (step_term (grid0.coords t) (iblk m c 0 t) (iblk m c 1 t) (outsAt0 m c (t.val - 1) hp).2 (XS m c) (WT m c)
    (t.val / 8) (t.val % 8) ek (Nat.mod_lt _ (by decide)) (blk0_apply m c t) (blk1_apply m c t) r j).trans ?_
  rw [ih, accAfter_apply, accAfter_apply]
  have e1 : (t.val - 1) / 8 = t.val / 8 := by omega
  have e2 : t.val % 8 = (t.val - 1) % 8 + 1 := by omega
  rw [e1, e2]
  exact (partialSum_succ _ _ _ _ _ _).symm

/-- After a point with `k = 7`: the same. -/
theorem acc_C (c : Dev nD) (t : Fin cfg0.N) (h0 : ¬t.val % 8 = 0) (h1 : t.val % 8 = 7) (hp : t.val - 1 < cfg0.N)
    (ih : (outsAt0 m c (t.val - 1) hp).2 = accAfter m c (t.val - 1)) :
    (outsAt0 m c t.val t.isLt).2 = accAfter m c t.val := by
  rw [outsAt0_C m c t h0 h1]
  dsimp only
  rw [scratch_C]
  funext y
  obtain ⟨r, j, rfl⟩ : ∃ (r : Fin 2048) (j : Fin 512), y = ix2 r j := ⟨y 0, y 1, eq_ix2 y⟩
  have ek := (idx_facts t).2.2.2.2.2.2.2.2.2.2
  refine (step_term (grid0.coords t) (iblk m c 0 t) (iblk m c 1 t) (outsAt0 m c (t.val - 1) hp).2 (XS m c) (WT m c)
    (t.val / 8) (t.val % 8) ek (Nat.mod_lt _ (by decide)) (blk0_apply m c t) (blk1_apply m c t) r j).trans ?_
  rw [ih, accAfter_apply, accAfter_apply]
  have e1 : (t.val - 1) / 8 = t.val / 8 := by omega
  have e2 : t.val % 8 = (t.val - 1) % 8 + 1 := by omega
  rw [e1, e2]
  exact (partialSum_succ _ _ _ _ _ _).symm

/-- THE ACCUMULATOR after every point is the running sum, by induction on the point. -/
theorem acc_eq (c : Dev nD) : ∀ (n : ℕ) (hn : n < cfg0.N), (outsAt0 m c n hn).2 = accAfter m c n := by
  intro n
  induction n with
  | zero => intro hn; exact acc_A m c ⟨0, hn⟩ (Nat.zero_mod 8) (by show ¬(0 : ℕ) % 8 = 7; decide)
  | succ n ih =>
    intro hn
    have hN : n + 1 < 64 := lt_of_lt_of_eq hn (show cfg0.N = 64 from N_0)
    by_cases h0 : (n + 1) % 8 = 0
    · exact acc_A m c ⟨n + 1, hn⟩ h0 (by show ¬(n + 1) % 8 = 7; omega)
    · by_cases h1 : (n + 1) % 8 = 7
      · exact acc_C m c ⟨n + 1, hn⟩ h0 h1 (Nat.lt_of_succ_lt hn) (ih (Nat.lt_of_succ_lt hn))
      · exact acc_B m c ⟨n + 1, hn⟩ h0 h1 (Nat.lt_of_succ_lt hn) (ih (Nat.lt_of_succ_lt hn))

/-- THE OUTPUT BLOCK at a point with `k = 7`: the running sum after it, times the gain block, plus the bias block. -/
theorem out_eq (c : Dev nD) (t : Fin cfg0.N) (h0 : ¬t.val % 8 = 0) (h1 : t.val % 8 = 7) :
    (outsAt0 m c t.val t.isLt).1 = outFn (iblk m c 2 t) (iblk m c 3 t) (accAfter m c t.val) := by
  have hs := acc_eq m c t.val t.isLt
  rw [outsAt0_C m c t h0 h1] at hs ⊢
  dsimp only at hs ⊢
  rw [scratch_C] at hs
  funext y
  rw [out_apply, hs]

end Cert.KernelIdeal.Bridge

end
-- ==== Proof.HostPrefix.lean ====
/-
  The arrays the host operations before the region hand it, read at an index.

  * The decoded scale rows `α` (a small encoder and decoder applied to the scale argument) are computed by the same
    operations, in the same order, as the reference computes them: they are kept as ONE closed term (`alphaDec`), never
    opened.
  * The scaled input: row `r` of the `[2048, 4096]` array is batch row `r % 512` times model row `r / 512` of `α`
    (two broadcasts each to `[4, 512, 4096]`, a product, the two leading axes merged, a change of float format).
  * The padded gain and bias: rows `0 … 3` of the `[8, 4096]` arrays are the arguments' rows.
-/
import proofs.«164941_j34514357190659_2_alg».proof.Proof.Gen.KernelIdeal.Frame
import proofs.«164941_j34514357190659_2_alg».proof.Proof.Gen.ReferenceIdeal.Read
import proofs.«164941_j34514357190659_2_alg».proof.Proof.Blocks
import proofs.«164941_j34514357190659_2_alg».proof.Proof.Spec
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Idealize.ShloMosaic.StableHlo Cert.Ensemble

variable (m : (ℓ : Loc nD τ sig) → Buf (Elt Ideal) ℓ)

/-- The decoded scale rows of the kernel's arguments: the reference's own stage for them, at these arguments. -/
def alphaDec (c : Dev nD) : Arr 4 4096 :=
  Cert.ReferenceIdeal.Read.val_main_v20 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The scaled input as the host builds it from the batch and the decoded scale rows. -/
def xsOf (x : S512x4096.Idx → EReal) (α : S4x4096.Idx → EReal) : S2048x4096.Idx → EReal :=
  truncf (F := Ideal) (φ := .f32) .bf16
    (shapeCast S2048x4096
      (mulf (F := Ideal) (φ := .f32)
        (broadcastInDim S4x512x4096 ![0, 1, 2] Facts₀.bcast_S1x512x4096_S4x512x4096_0_1_2
          (broadcastInDim S1x512x4096 ![1, 2] Facts₀.bcast_S512x4096_S1x512x4096_1_2 x))
        (broadcastInDim S4x512x4096 ![0, 1, 2] Facts₀.bcast_S4x1x4096_S4x512x4096_0_1_2
          (broadcastInDim S4x1x4096 ![0, 2] Facts₀.bcast_S4x4096_S4x1x4096_0_2 α)))
      Facts₀.shapeCasts_S4x512x4096_S2048x4096)
    Facts₀.bitsLt_bf16_f32

/-- Entry `(r, k)` of the scaled input: batch row `r % 512` times model row `r / 512`. -/
theorem xsOf_apply (x : S512x4096.Idx → EReal) (α : S4x4096.Idx → EReal) (r : Fin 2048) (k : Fin 4096) :
    xsOf x α (ix2 r k)
      = x (ix2 (⟨r.val % 512, Nat.mod_lt _ (by decide)⟩ : Fin 512) k) * α (ix2 (⟨r.val / 512, by have := r.isLt; omega⟩ : Fin 4) k) := by
  have hr := r.isLt
  unfold xsOf
  refine (truncf_apply (ψ := .bf16) (φ := .f32) _ Facts₀.bitsLt_bf16_f32 (ix2 r k)).trans ?_
  refine (shapeCast_apply _ Facts₀.shapeCasts_S4x512x4096_S2048x4096 (ix2 r k)
    (ix3 (⟨r.val / 512, by omega⟩ : Fin 4) (⟨r.val % 512, Nat.mod_lt _ (by decide)⟩ : Fin 512) k) (by
      rw [Shape.rowMajor_val_three, Shape.rowMajor_val_two]
      show (r.val / 512 * 512 + r.val % 512) * 4096 + k.val = r.val * 4096 + k.val
      omega)).trans ?_
  refine (mulf_apply _ _ _).trans ?_
  congr 1
  · refine (broadcastInDim_apply _ Facts₀.bcast_S1x512x4096_S4x512x4096_0_1_2 _ _
      (ix3 (0 : Fin 1) (⟨r.val % 512, Nat.mod_lt _ (by decide)⟩ : Fin 512) k) (fun a => match a with
        | ⟨0, _⟩ => by show 0 = if (1 : Nat) = 1 then 0 else _; rw [if_pos rfl]
        | ⟨1, _⟩ => by show r.val % 512 = if (512 : Nat) = 1 then 0 else r.val % 512; rw [if_neg (by decide)]
        | ⟨2, _⟩ => by show k.val = if (4096 : Nat) = 1 then 0 else k.val; rw [if_neg (by decide)])).trans ?_
    exact broadcastInDim_apply _ Facts₀.bcast_S512x4096_S1x512x4096_1_2 x _
      (ix2 (⟨r.val % 512, Nat.mod_lt _ (by decide)⟩ : Fin 512) k) (fun a => match a with
        | ⟨0, _⟩ => by show r.val % 512 = if (512 : Nat) = 1 then 0 else r.val % 512; rw [if_neg (by decide)]
        | ⟨1, _⟩ => by show k.val = if (4096 : Nat) = 1 then 0 else k.val; rw [if_neg (by decide)])
  · refine (broadcastInDim_apply _ Facts₀.bcast_S4x1x4096_S4x512x4096_0_1_2 _ _
      (ix3 (⟨r.val / 512, by omega⟩ : Fin 4) (0 : Fin 1) k) (fun a => match a with
        | ⟨0, _⟩ => by show r.val / 512 = if (4 : Nat) = 1 then 0 else r.val / 512; rw [if_neg (by decide)]
        | ⟨1, _⟩ => by show 0 = if (1 : Nat) = 1 then 0 else _; rw [if_pos rfl]
        | ⟨2, _⟩ => by show k.val = if (4096 : Nat) = 1 then 0 else k.val; rw [if_neg (by decide)])).trans ?_
    exact broadcastInDim_apply _ Facts₀.bcast_S4x4096_S4x1x4096_0_2 α _
      (ix2 (⟨r.val / 512, by omega⟩ : Fin 4) k) (fun a => match a with
        | ⟨0, _⟩ => by show r.val / 512 = if (4 : Nat) = 1 then 0 else r.val / 512; rw [if_neg (by decide)]
        | ⟨1, _⟩ => by show k.val = if (4096 : Nat) = 1 then 0 else k.val; rw [if_neg (by decide)])

set_option maxHeartbeats 4000000 in
/-- The region finds the scaled input built from the batch argument and the decoded scale rows. -/
theorem xs_eq (c : Dev nD) : XS m c = xsOf (m ((c : Thread nD τ).loc main_arg0)) (alphaDec m c) := by
  show (V m c main_call0_v27 : S2048x4096.Idx → EReal) = _
  dsimp only [Gen.V, Gen.hostOps0]
  after_results_simp <;> rfl

/-- The padded array the host builds from a `[4, 4096]` argument. -/
def padOf (x : S4x4096.Idx → EReal) : S8x4096.Idx → EReal :=
  pad S8x4096 ![0, 0] ![4, 0] ![0, 0] x (sitofp (F := Ideal) .f32 (constantI S_ 32 0#32))
    Facts₀.pads_S4x4096_S8x4096_040_000 Facts₀.h_S_

/-- Rows `0 … 3` of the padded array are the argument's. -/
theorem padOf_apply (x : S4x4096.Idx → EReal) (p : Fin 4) (q : Fin 4096) :
    padOf x (ix2 (⟨p.val, by have := p.isLt; omega⟩ : Fin 8) q) = x (ix2 p q) := by
  unfold padOf
  exact pad_apply_of_inside _ _ _ x _ Facts₀.pads_S4x4096_S8x4096_040_000 Facts₀.h_S_ _ (ix2 p q) (fun a => match a with
    | ⟨0, _⟩ => by show p.val = 0 + p.val * (0 + 1); omega
    | ⟨1, _⟩ => by show q.val = 0 + q.val * (0 + 1); omega)

set_option maxHeartbeats 4000000 in
theorem g8_eq (c : Dev nD) : G8 m c = padOf (m ((c : Thread nD τ).loc main_arg3)) := by
  show (V m c main_call0_v28 : S8x4096.Idx → EReal) = _
  dsimp only [Gen.V, Gen.hostOps0]
  after_results_simp <;> rfl

set_option maxHeartbeats 4000000 in
theorem b8_eq (c : Dev nD) : B8 m c = padOf (m ((c : Thread nD τ).loc main_arg4)) := by
  show (V m c main_call0_v29 : S8x4096.Idx → EReal) = _
  dsimp only [Gen.V, Gen.hostOps0]
  after_results_simp <;> rfl

theorem wt_eq (c : Dev nD) : WT m c = (m ((c : Thread nD τ).loc main_arg5)) := V_main_arg5 m c

/-- The scaled input addressed by naturals. -/
theorem xs_nat (c : Dev nD) (r k : ℕ) (hr : r < 2048) (hk : k < 4096) :
    nat2 (XS m c) r k = nat2 ((m ((c : Thread nD τ).loc main_arg0)) : Arr 512 4096) (r % 512) k * nat2 (alphaDec m c) (r / 512) k := by
  rw [nat2_of_lt _ hr hk, nat2_of_lt _ (Nat.mod_lt _ (by decide)) hk, nat2_of_lt _ (show r / 512 < 4 by omega) hk, xs_eq]
  exact xsOf_apply _ _ ⟨r, hr⟩ ⟨k, hk⟩

/-- The padded gain and bias addressed by naturals, on the four models' rows. -/
theorem g8_nat (c : Dev nD) (p q : ℕ) (hp : p < 4) (hq : q < 4096) :
    nat2 (G8 m c) p q = nat2 ((m ((c : Thread nD τ).loc main_arg3)) : Arr 4 4096) p q := by
  rw [nat2_of_lt _ (show p < 8 by omega) hq, nat2_of_lt _ hp hq, g8_eq]
  exact padOf_apply _ ⟨p, hp⟩ ⟨q, hq⟩

theorem b8_nat (c : Dev nD) (p q : ℕ) (hp : p < 4) (hq : q < 4096) :
    nat2 (B8 m c) p q = nat2 ((m ((c : Thread nD τ).loc main_arg4)) : Arr 4 4096) p q := by
  rw [nat2_of_lt _ (show p < 8 by omega) hq, nat2_of_lt _ hp hq, b8_eq]
  exact padOf_apply _ ⟨p, hp⟩ ⟨q, hq⟩

end Cert.KernelIdeal.Bridge

end
-- ==== Proof.Final.lean ====
/-
  From the blocks to the result array, and the kernel's run with its result named.

  Output tile `n` is written back once, at the point with `k = 7`, and holds there columns `512·n …` of ONE function of
  the arrays the region finds: the layer over the scaled input from a zero start, with the padded gain and bias. The
  eight written blocks tile the `[2048, 4096]` result (column `c` lies in tile `c / 512`), so the result array ends
  holding that function; the host operations before the region then make it the specification of the arguments.
-/
import proofs.«164941_j34514357190659_2_alg».proof.Proof.Accum
import proofs.«164941_j34514357190659_2_alg».proof.Proof.HostPrefix
import proofs.«164941_j34514357190659_2_alg».proof.Proof.Gen.KernelIdeal.Value
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.Ensemble
open Idealize.ShloMosaic.Pipeline (Dat)
open scoped BigOperators

variable (m : (ℓ : Loc nD τ sig) → Buf (Elt Ideal) ℓ) (ρ : Dev nD → PrngReg)

/-- What the result array ends holding, over the arrays the region finds. -/
def kernelOut (c : Dev nD) : Arr 2048 4096 := layerOf 0 (XS m c) (WT m c) (G8 m c) (B8 m c)

/-- WHAT A WRITING POINT WRITES BACK is its block of `kernelOut`. -/
theorem flushed_eq (c : Dev nD) (t : Fin cfg0.N) (hf : (cfg0.win 4).flush t = true) :
    (dats m 0 c).flushed 4 t = ((cfg0.win 4).blk t).view.read (Elt Ideal) (kernelOut m c) := by
  have h1 : t.val % 8 = 7 := (flush0_4 t).mp hf
  have h0 : ¬t.val % 8 = 0 := by omega
  have hN : t.val < 64 := lt_of_lt_of_eq t.isLt (show cfg0.N = 64 from N_0)
  obtain ⟨-, -, -, -, -, -, -, -, e0, e1, -⟩ := idx_facts t
  rw [Cert.KernelIdeal.Value.flushed4, out_eq m c t h0 h1]
  funext y
  show outFn (iblk m c 2 t) (iblk m c 3 t) (accAfter m c t.val) y = kernelOut m c (((cfg0.win 4).blk t).view.emb y)
  obtain ⟨r, j, rfl⟩ : ∃ (r : Fin 2048) (j : Fin 512), y = ix2 r j := ⟨y 0, y 1, eq_ix2 y⟩
  have hi0 : ((((cfg0.win 4).blk t).view.emb (ix2 r j)) 0).val = r.val := by
    show win0_4.index t (0 : Fin 2) * 2048 + 1 * r.val = r.val
    rw [e0]; omega
  have hi1 : ((((cfg0.win 4).blk t).view.emb (ix2 r j)) 1).val = t.val / 8 * 512 + j.val := by
    show win0_4.index t (1 : Fin 2) * 512 + 1 * j.val = t.val / 8 * 512 + j.val
    rw [e1]; omega
  unfold kernelOut
  rw [layerOf_at 0 (XS m c) (WT m c) (G8 m c) (B8 m c) _ r.val (t.val / 8 * 512 + j.val) hi0 hi1]
  unfold outFn modelRow
  rw [blk2_apply m c t, blk3_apply m c t, accAfter_apply, h1, partialSum_last]

/-- Every index of the result lies in the block of the writing point of its column's tile. -/
theorem cover (i : S2048x4096.Idx) :
    ∃ t : Fin cfg0.N, (cfg0.win 4).flush t = true ∧ i ∈ ((cfg0.win 4).blk t).view.set := by
  have h0 : (i 0).val < 2048 := (i 0).isLt
  have h1 : (i 1).val < 4096 := (i 1).isLt
  have hN : cfg0.N = 64 := N_0
  have hlt : (i 1).val / 512 * 8 + 7 < cfg0.N := by rw [hN]; omega
  obtain ⟨-, -, -, -, -, -, -, -, e0, e1, -⟩ := idx_facts ⟨(i 1).val / 512 * 8 + 7, hlt⟩
  refine ⟨⟨(i 1).val / 512 * 8 + 7, hlt⟩, (flush0_4 _).mpr (by show ((i 1).val / 512 * 8 + 7) % 8 = 7; omega), ?_⟩
  show i ∈ ((View.whole main_v0).slice (win0_4.rect ⟨(i 1).val / 512 * 8 + 7, hlt⟩)).set
  rw [View.set_slice_whole, Rect.mem_set_unit]
  intro a
  match a with
  | ⟨0, _⟩ =>
    show win0_4.index ⟨(i 1).val / 512 * 8 + 7, hlt⟩ (0 : Fin 2) * 2048 ≤ (i 0).val
      ∧ (i 0).val < win0_4.index ⟨(i 1).val / 512 * 8 + 7, hlt⟩ (0 : Fin 2) * 2048 + 2048
    rw [e0]; omega
  | ⟨1, _⟩ =>
    show win0_4.index ⟨(i 1).val / 512 * 8 + 7, hlt⟩ (1 : Fin 2) * 512 ≤ (i 1).val
      ∧ (i 1).val < win0_4.index ⟨(i 1).val / 512 * 8 + 7, hlt⟩ (1 : Fin 2) * 512 + 512
    rw [e1]
    show ((i 1).val / 512 * 8 + 7) / 8 * 512 ≤ (i 1).val ∧ (i 1).val < ((i 1).val / 512 * 8 + 7) / 8 * 512 + 512
    omega

/-- THE RESULT ARRAY after the run. -/
theorem final (c : Dev nD) : (dats m 0 c).arrAt 4 cfg0.N = kernelOut m c :=
  (dats m 0 c).arrAt_eq_of_cover 4 (kernelOut m c) (flushed_eq m c) cover

/-- The arrays the region finds are the host's functions of the arguments, so the result is the specification. -/
theorem kernelOut_eq (c : Dev nD) :
    kernelOut m c = layer (m ((c : Thread nD τ).loc main_arg0)) (alphaDec m c) (m ((c : Thread nD τ).loc main_arg5)) (m ((c : Thread nD τ).loc main_arg3)) (m ((c : Thread nD τ).loc main_arg4)) := by
  unfold kernelOut
  rw [wt_eq m c]
  exact layerOf_eq_layer _ _ _ _ _ _ _ _ (xs_nat m c) (g8_nat m c) (b8_nat m c)

/-- THE KERNEL'S RUN, READ: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = (layer (m ((c : Thread nD τ).loc main_arg0)) (alphaDec m c) (m ((c : Thread nD τ).loc main_arg5)) (m ((c : Thread nD τ).loc main_arg3)) (m ((c : Thread nD τ).loc main_arg4)) : S2048x4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (kernelOut_eq m c)), (h c).2⟩)
    (Cert.KernelIdeal.Value.run_blocks m ρ)

end Cert.KernelIdeal.Bridge

end
-- ==== Proof.RefRead.lean ====
/-
  The reference at an index: its result is the specification of its arguments.

  The reference tiles the batch four times and repeats each of the four decoded scale rows, gain rows and bias rows 512
  times, all by a broadcast to `[4, 512, ·]` and a merge of the two leading axes: row `r` of each `[2048, ·]` array is
  batch row `r % 512`, respectively model row `r / 512`. Its product with the transposed weight contracts over the
  4096 input features. The decoded scale rows stay the closed stage `val_main_v20`.
-/
import proofs.«164941_j34514357190659_2_alg».proof.Proof.Gen.ReferenceIdeal.Read
import proofs.«164941_j34514357190659_2_alg».proof.Proof.Spec
import Idealize.ShloMosaic.Lib.ValueIdx

set_option maxRecDepth 16384

noncomputable section

namespace Cert.ReferenceIdeal.RefValue

open Cert.ReferenceIdeal Cert.ReferenceIdeal.Read Idealize.ShloMosaic Idealize.ShloMosaic.ValueIdx Cert.Ensemble
open scoped BigOperators

/-- An array's entry at an index whose coordinates are `p` and `q`. -/
theorem at_nat {a b : ℕ} (A : Arr a b) (j : (⟨2, ![a, b]⟩ : Shape).Idx) (p q : ℕ) (hp : (j 0).val = p) (hq : (j 1).val = q) :
    A j = nat2 A p q := by
  subst hp hq
  rw [nat2_of_lt A (j 0).isLt (j 1).isLt]
  exact congrArg A (eq_ix2 j)

/-- THE REFERENCE'S RESULT is the specification of its arguments, the decoded scale rows its own stage. -/
theorem result_eq (x0 : (⟨S512x4096, .f32⟩ : BufTy).Contents (Elt Ideal)) (x1 : (⟨S4x32, .f32⟩ : BufTy).Contents (Elt Ideal)) (x2 x3 x4 : (⟨S4x4096, .f32⟩ : BufTy).Contents (Elt Ideal)) (x5 : (⟨S4096x4096, .f32⟩ : BufTy).Contents (Elt Ideal)) (x6 : (⟨S32x4096, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S4096x32, .f32⟩ : BufTy).Contents (Elt Ideal)) (x11 : (⟨S4096, .f32⟩ : BufTy).Contents (Elt Ideal)) :
    val_main_v34 (F := Ideal) x0 x1 x2 x3 x4 x5 x6 x7 x8 x9 x10 x11
      = layer x0 (val_main_v20 (F := Ideal) x1 x2 x6 x7 x8 x9 x10 x11) x5 x3 x4 := by
  funext i
  have h0 : (i 0).val < 2048 := (i 0).isLt
  have h1 : (i 1).val < 4096 := (i 1).isLt
  rw [val_main_v34_apply, val_main_v33_apply, val_main_v32_apply, val_main_v29_apply, val_main_v28_apply,
    val_main_v27_apply, val_main_v26_apply]
  unfold layer
  rw [Ideal.addf_def, Ideal.mulf_def]
  have eg : x3 (idx_main_v26 (idx_main_v27 i)) = nat2 (x3 : Arr 4 4096) ((i 0).val / 512) (i 1).val :=
    at_nat (x3 : Arr 4 4096) _ _ _
      (by show ((i 0).val * 4096 + (i 1).val) / 2097152 = (i 0).val / 512; omega)
      (by show ((i 0).val * 4096 + (i 1).val) % 4096 = (i 1).val; omega)
  have eb : x4 (idx_main_v28 (idx_main_v29 i)) = nat2 (x4 : Arr 4 4096) ((i 0).val / 512) (i 1).val :=
    at_nat (x4 : Arr 4 4096) _ _ _
      (by show ((i 0).val * 4096 + (i 1).val) / 2097152 = (i 0).val / 512; omega)
      (by show ((i 0).val * 4096 + (i 1).val) % 4096 = (i 1).val; omega)
  rw [eg, eb]
  congr 2
  refine Finset.sum_congr rfl fun k _ => ?_
  have hk : k.val < 4096 := k.isLt
  rw [val_main_v30_apply, val_main_v23_apply, val_main_v22_apply, val_main_v21_apply, val_main_v25_apply,
    val_main_v24_apply, val_main_v31_apply, Ideal.mulf_def]
  have ex : x0 (idx_main_v21 (idx_main_v22 (idx_main_v23 (lidx_main_v32 i k))))
      = nat2 (x0 : Arr 512 4096) ((i 0).val % 512) k.val :=
    at_nat (x0 : Arr 512 4096) _ _ _
      (by show (((0 * 512 + ((i 0).val * 4096 + k.val) / 4096 % 512) * 1 + 0) * 4096 + ((i 0).val * 4096 + k.val) % 4096) / 4096
            = (i 0).val % 512
          omega)
      (by show (((0 * 512 + ((i 0).val * 4096 + k.val) / 4096 % 512) * 1 + 0) * 4096 + ((i 0).val * 4096 + k.val) % 4096) % 4096
            = k.val
          omega)
  have ea : val_main_v20 (F := Ideal) x1 x2 x6 x7 x8 x9 x10 x11 (idx_main_v24 (idx_main_v25 (lidx_main_v32 i k)))
      = nat2 (val_main_v20 (F := Ideal) x1 x2 x6 x7 x8 x9 x10 x11 : Arr 4 4096) ((i 0).val / 512) k.val :=
    at_nat (val_main_v20 (F := Ideal) x1 x2 x6 x7 x8 x9 x10 x11 : Arr 4 4096) _ _ _
      (by show ((i 0).val * 4096 + k.val) / 2097152 = (i 0).val / 512; omega)
      (by show ((i 0).val * 4096 + k.val) % 4096 = k.val; omega)
  have ew : x5 (idx_main_v31 (ridx_main_v32 i k)) = nat2 (x5 : Arr 4096 4096) (i 1).val k.val :=
    at_nat (x5 : Arr 4096 4096) _ _ _ rfl rfl
  rw [ex, ea, ew]

end Cert.ReferenceIdeal.RefValue

end
-- ==== Proof.lean ====
/-
  The proof of `Cert.Claim`: the fused ensemble layer against its plain reference.

  Both programs compute, for a batch `x` of 512 rows, decoded scale rows `α` of four models, a weight `w` and per-model
  gain and bias rows, the `[2048, 4096]` array whose row `512·m + b` is

      (∑ₖ (x[b, k] · α[m, k]) · w[c, k]) · γ[m, c] + β[m, c]        (Proof/Spec.lean, `layer`).

  The kernel builds the scaled input on the host, then over an 8 × 8 grid accumulates, per output tile of 512 columns,
  the contraction in 8 blocks of 512 positions into a scratch accumulator zeroed at the first block, and after the last
  block multiplies by the gain and adds the bias of each row's model (rows of the gain and bias arrays padded to 8).
  The reference tiles and repeats its operands to 2048 rows and makes one whole contraction. The two agree on the
  extended reals because a sum over 4096 positions is the sum of its 8 consecutive blocks' sums, and zero plus it —
  associativity and commutativity of the sum only, so the precondition is never opened.

  Modules: Spec (the function and the block law), Payloads (the body's arithmetic at an index), Pieces (what each of
  the body's three cases leaves), Blocks (the windows' blocks at an index), Epilogue (the output block), Accum (the
  accumulator by induction on the grid point), HostPrefix (the arrays the host hands the region), Final (the result
  array, the kernel's run), RefRead (the reference at an index); the frames and the idealization claim are the generated
  ones. The decoded scale rows are the same closed term on both sides and are never opened.
-/
import proofs.«164941_j34514357190659_2_alg».proof.Defs
import proofs.«164941_j34514357190659_2_alg».proof.Proof.Gen.Kernel
import proofs.«164941_j34514357190659_2_alg».proof.Proof.Gen.Kernel.Frame
import proofs.«164941_j34514357190659_2_alg».proof.Proof.Gen.KernelIdeal
import proofs.«164941_j34514357190659_2_alg».proof.Proof.Gen.KernelIdeal.Frame
import proofs.«164941_j34514357190659_2_alg».proof.Proof.Gen.KernelIdeal.Value
import proofs.«164941_j34514357190659_2_alg».proof.Proof.Gen.ReferenceIdeal
import proofs.«164941_j34514357190659_2_alg».proof.Proof.Gen.ReferenceIdeal.Run
import proofs.«164941_j34514357190659_2_alg».proof.Proof.Gen.ReferenceIdeal.Read
import proofs.«164941_j34514357190659_2_alg».proof.Proof.Gen.Pre_finite_inputs
import proofs.«164941_j34514357190659_2_alg».proof.Proof.Final
import proofs.«164941_j34514357190659_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the specification of arguments that agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
